-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x600000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S5000x128 : Shape := ⟨2, ![5000, 128]⟩
abbrev S5000x1 : Shape := ⟨2, ![5000, 1]⟩
abbrev S650000x128 : Shape := ⟨2, ![650000, 128]⟩
abbrev S1x128 : Shape := ⟨2, ![1, 128]⟩
abbrev S6400000 : Shape := ⟨1, ![6400000]⟩

abbrev nBuf : Space → Nat
  | .hbm => 42
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S50000, .i32⟩
  | .hbm, ⟨9, _⟩ => ⟨S650000, .i32⟩
  | .hbm, ⟨10, _⟩ => ⟨S650000, .i32⟩
  | .hbm, ⟨11, _⟩ => ⟨S_, .f32⟩
  | .hbm, ⟨12, _⟩ => ⟨S650000, .f32⟩
  | .hbm, ⟨13, _⟩ => ⟨S_, .f32⟩
  | .hbm, ⟨14, _⟩ => ⟨S50000, .f32⟩
  | .hbm, ⟨15, _⟩ => ⟨S650000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x128, .f32⟩
  | .hbm, ⟨26, _⟩ => ⟨S_, .i32⟩
  | .hbm, ⟨27, _⟩ => ⟨S650000, .i32⟩
  | .hbm, ⟨28, _⟩ => ⟨S650000, .i1⟩
  | .hbm, ⟨29, _⟩ => ⟨S_, .i32⟩
  | .hbm, ⟨30, _⟩ => ⟨S650000, .i32⟩
  | .hbm, ⟨31, _⟩ => ⟨S650000, .i32⟩
  | .hbm, ⟨32, _⟩ => ⟨S650000, .i32⟩
  | .hbm, ⟨33, _⟩ => ⟨S650000x1, .i32⟩
  | .hbm, ⟨34, _⟩ => ⟨S650000x128, .f32⟩
  | .hbm, ⟨35, _⟩ => ⟨S_, .f32⟩
  | .hbm, ⟨36, _⟩ => ⟨S50000x128, .f32⟩
  | .hbm, ⟨37, _⟩ => ⟨S650000x1, .i32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S6400000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S50000x128_S6400000 : S50000x128.ShapeCasts S6400000
  scatter_S50000_S650000x1_S650000_n_0_0_1_wf : ScatterDims.WF S50000 S650000x1 S650000 [] [0] [0] 1
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S6400000 : Shape := ⟨1, ![6400000]⟩

abbrev nBuf : Space → Nat
  | .hbm => 67
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S50000, .i32⟩
  | .hbm, ⟨5, _⟩ => ⟨S1x600000, .i32⟩
  | .hbm, ⟨6, _⟩ => ⟨S600000, .i32⟩
  | .hbm, ⟨7, _⟩ => ⟨S650000, .i32⟩
  | .hbm, ⟨8, _⟩ => ⟨S1x600000, .i32⟩
  | .hbm, ⟨9, _⟩ => ⟨S600000, .i32⟩
  | .hbm, ⟨10, _⟩ => ⟨S650000, .i32⟩
  | .hbm, ⟨11, _⟩ => ⟨S_, .f32⟩
  | .hbm, ⟨12, _⟩ => ⟨S650000, .f32⟩
  | .hbm, ⟨13, _⟩ => ⟨S_, .f32⟩
  | .hbm, ⟨14, _⟩ => ⟨S50000, .f32⟩
  | .hbm, ⟨15, _⟩ => ⟨S650000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S650000, .i32⟩
  | .hbm, ⟨26, _⟩ => ⟨S650000, .i1⟩
  | .hbm, ⟨27, _⟩ => ⟨S_, .i32⟩
  | .hbm, ⟨28, _⟩ => ⟨S650000, .i32⟩
  | .hbm, ⟨29, _⟩ => ⟨S650000, .i32⟩
  | .hbm, ⟨30, _⟩ => ⟨S650000, .i32⟩
  | .hbm, ⟨31, _⟩ => ⟨S650000x1, .i32⟩
  | .hbm, ⟨32, _⟩ => ⟨S650000, .f32⟩
  | .hbm, ⟨33, _⟩ => ⟨S_, .i32⟩
  | .hbm, ⟨34, _⟩ => ⟨S650000, .i32⟩
  | .hbm, ⟨35, _⟩ => ⟨S650000, .i1⟩
  | .hbm, ⟨36, _⟩ => ⟨S_, .i32⟩
  | .hbm, ⟨37, _⟩ => ⟨S650000, .i32⟩
  | .hbm, ⟨38, _⟩ => ⟨S650000, .i32⟩
  | .hbm, ⟨39, _⟩ => ⟨S650000, .i32⟩
  | .hbm, ⟨40, _⟩ => ⟨S650000x1, .i32⟩
  | .hbm, ⟨41, _⟩ => ⟨S650000, .f32⟩
  | .hbm, ⟨42, _⟩ => ⟨S650000, .f32⟩
  | .hbm, ⟨43, _⟩ => ⟨S50000x128, .f32⟩
  | .hbm, ⟨44, _⟩ => ⟨S_, .i32⟩
  | .hbm, ⟨45, _⟩ => ⟨S650000, .i32⟩
  | .hbm, ⟨46, _⟩ => ⟨S650000, .i1⟩
  | .hbm, ⟨47, _⟩ => ⟨S_, .i32⟩
  | .hbm, ⟨48, _⟩ => ⟨S650000, .i32⟩
  | .hbm, ⟨49, _⟩ => ⟨S650000, .i32⟩
  | .hbm, ⟨50, _⟩ => ⟨S650000, .i32⟩
  | .hbm, ⟨51, _⟩ => ⟨S650000x1, .i32⟩
  | .hbm, ⟨52, _⟩ => ⟨S650000x128, .f32⟩
  | .hbm, ⟨53, _⟩ => ⟨S650000x1, .f32⟩
  | .hbm, ⟨54, _⟩ => ⟨S650000x128, .f32⟩
  | .hbm, ⟨55, _⟩ => ⟨S650000x128, .f32⟩
  | .hbm, ⟨56, _⟩ => ⟨S_, .f32⟩
  | .hbm, ⟨57, _⟩ => ⟨S50000x128, .f32⟩
  | .hbm, ⟨58, _⟩ => ⟨S650000x1, .i32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S6400000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call1_cst : Ref sig .tc := ⟨.hbm, 63, rfl⟩
abbrev main_call1_v0 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S6400000 : S50000x128.ShapeCasts S6400000
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.KernelRun.lean ====
/-
  The idealized kernel's run with its result named.

  The program is two pipelined regions among stretches of host operations. Its frame proof folds the buffer
  contents through the segments — `W0` at launch, then one step per stretch or region, `W7` at the return — and shows
  that every weakly fair execution ends with every unscoped buffer at `W7`. Here the same run is stated with the
  result buffer kept in the post: it ends holding `W7` at the result's reference, and the arguments are unchanged.
-/
import proofs.«101896_j20066087207116_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the fold's last
    contents `W7` and the argument arrays as launched. -/
theorem run_result : θ_run defs (onTc (τ := τ) (main (F := F))) ⟨m, fun _ => 0, ρ⟩ (fun r => ∀ c : Dev nD,
      r.2.mem ((c.tc : Thread nD τ).loc main_v30) = W7 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v30 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.KRun

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibSegmentScale.lean ====
/-
  Messages sent along the edges of a graph and summed at their target nodes, with a factor per node — over the extended reals.

  Node `r` carries a feature row `H[r, ·]` and a factor `D r`. Every edge `k` names a source node and a target node by
  two integer words. The message of edge `k` is the source's row; the value at node `c` is the sum of the messages of the
  edges whose target is `c`. A symmetric normalisation weighs edge `k`'s message by `D (source k) · D (target k)`.
  It can be applied edge by edge, or split: every row scaled by its own node's factor BEFORE it is sent, and every
  sum scaled by the target node's factor AFTER it is formed. The two agree because every edge summed at `c` has target
  `c`, so the second factor is the same in every term and moves out of the sum — which on the extended reals is sound
  for a factor that is a nonnegative finite number (`sum_mul_of_nonneg_ne_top`), whatever the terms are.

  The array operations that spell this: a gather of rows at clamped start indices (`rowsGather`), a gather of
  entries (`entryGather`), and a scatter that adds each update row at the row its start index names and drops it
  when that row does not exist (`rowsScatter`); each is read here at an index given by coordinates.
  Last, the factor itself when it is the inverse square root of a count guarded against zero: nonnegative and finite.
-/
import Idealize.ShloMosaic.PureOps.Ideal
import Idealize.ShloMosaic.PureOps.Ideal.Laws
import Idealize.ShloMosaic.Lib.ValueIdx

noncomputable section

namespace Cert.SegmentScale

open Idealize.ShloMosaic Idealize.ShloMosaic.ValueIdx

/-! ## A nonnegative finite factor moves out of a sum of extended reals -/

/-- `(∑ a j) · d = ∑ (a j · d)` when `0 ≤ d < ⊤`: right distributivity holds for such a factor whatever the two
    summands are (an infinite summand times `d` keeps its sign, or vanishes with `d`), hence for every finite sum. -/
theorem sum_mul_of_nonneg_ne_top {ι : Type*} (s : Finset ι) (a : ι → EReal) {d : EReal} (h0 : 0 ≤ d) (ht : d ≠ ⊤) :
    (∑ j ∈ s, a j) * d = ∑ j ∈ s, a j * d := by
  classical
  induction s using Finset.induction_on with
  | empty => simp
  | insert j s hj ih =>
    rw [Finset.sum_insert hj, Finset.sum_insert hj, EReal.right_distrib_of_nonneg_of_ne_top h0 ht, ih]

/-! ## The inverse square root of a count, guarded against zero, is a nonnegative finite number -/

/-- `if 0 < v then 1/√v else 0` on the extended reals: at `v = ⊤` the inverse root is `0`, at a positive real it is a
    positive real, and otherwise the guard answers `0`. -/
theorem guardedRsqrt_nonneg_ne_top (v : EReal) :
    (0 : EReal) ≤ Scalar.select (Ideal.cmp .ogt v 0) (Ideal.rsqrt v) 0
      ∧ Scalar.select (Ideal.cmp .ogt v 0) (Ideal.rsqrt v) 0 ≠ (⊤ : EReal) := by
  unfold Scalar.select Ideal.cmp
  by_cases h : (0 : EReal) < v
  · have hb : BitVec.ofBool (decide ((0 : EReal) < v)) = 1 := by rw [decide_eq_true h]; rfl
    rw [if_pos hb]
    induction v using EReal.rec with
    | bot => exact absurd h (by simp)
    | top => exact ⟨le_refl _, by simp⟩
    | coe r =>
      have hr : 0 < r := by exact_mod_cast h
      rw [Ideal.rsqrt_coe, if_neg (not_lt.mpr hr.le), if_neg hr.ne']
      exact ⟨by exact_mod_cast inv_nonneg.mpr (Real.sqrt_nonneg r), EReal.coe_ne_top _⟩
  · have hb : ¬ BitVec.ofBool (decide ((0 : EReal) < v)) = 1 := by rw [decide_eq_false h]; decide
    rw [if_neg hb]
    exact ⟨le_refl _, by simp⟩

/-- The same for a whole vector of counts as the array operations spell it: compare with a zero vector, take the
    host's inverse square root, select it or a zero. -/
theorem guardedRsqrt_vec {s : Shape} (deg z z' : FVec Ideal s .f32) (hz : ∀ k, z k = (0 : EReal)) (hz' : ∀ k, z' k = (0 : EReal))
    (k : s.Idx) :
    (0 : EReal) ≤ select (cmpf .ogt deg z) (Host.rsqrt deg) z' k ∧ select (cmpf .ogt deg z) (Host.rsqrt deg) z' k ≠ (⊤ : EReal) := by
  have e : select (cmpf .ogt deg z) (Host.rsqrt deg) z' k = Scalar.select (Ideal.cmp .ogt (deg k) 0) (Ideal.rsqrt (deg k)) 0 := by
    show Scalar.select (Ideal.cmp .ogt (deg k) (z k)) (Ideal.rsqrt (deg k)) (z' k) = _
    rw [hz k, hz' k]
  rw [e]
  exact guardedRsqrt_nonneg_ne_top (deg k)

/-! ## Coordinates of edges and nodes -/

section Dims
variable {n e f : ℕ}

/-- The node (row) coordinate of an index of an `[n, f]` array. -/
def nodeOf (p : (⟨2, ![n, f]⟩ : Shape).Idx) : Fin n := ⟨(p 0).val, idx2_lt0 p⟩
/-- The feature (column) coordinate of an index of an `[a, f]` array. -/
def featOf {a : ℕ} (p : (⟨2, ![a, f]⟩ : Shape).Idx) : Fin f := ⟨(p 1).val, idx2_lt1 p⟩
/-- The edge (row) coordinate of an index of an `[e, f]` array of messages. -/
def edgeOf (j : (⟨2, ![e, f]⟩ : Shape).Idx) : Fin e := ⟨(j 0).val, idx2_lt0 j⟩
/-- Where edge `k`'s one start-index word sits in the `[e, 1]` array of start indices. -/
abbrev edgeIdx (k : Fin e) : (⟨2, ![e, 1]⟩ : Shape).Idx := ix2 k (0 : Fin 1)

theorem nodeOf_ix2 (r : Fin n) (q : Fin f) : nodeOf (ix2 r q) = r := rfl
theorem featOf_ix2 {a : ℕ} (r : Fin a) (q : Fin f) : featOf (ix2 r q) = q := rfl
theorem eq_ix2_node_feat (p : (⟨2, ![n, f]⟩ : Shape).Idx) : p = ix2 (nodeOf p) (featOf p) := by
  funext a; match a with | ⟨0, _⟩ => rfl | ⟨1, _⟩ => rfl

/-- A start-index word read as a signed integer and clamped into `[0, n − 1]`: the node a gather reads. -/
def clampNode {w : ℕ} (hn : 0 < n) (v : BitVec w) : Fin n := ⟨min v.toInt.toNat (n - 1), by omega⟩

/-- A word whose signed value is a node's number clamps to that node. -/
theorem clampNode_of_toInt {w : ℕ} (hn : 0 < n) (v : BitVec w) (c : Fin n) (h : v.toInt = (c.val : ℤ)) : clampNode hn v = c := by
  apply Fin.ext
  show min v.toInt.toNat (n - 1) = c.val
  rw [h, Int.toNat_natCast]
  have := c.isLt
  omega

/-! ## The three array operations' dimension numbers -/

/-- Rows of an `[n, f]` array gathered at `[e, 1]` start indices into `[e, f]`: row `k` of the result is the operand's row
    at the clamped start index of `k`. -/
abbrev rowsGather (wf : GatherDims.WF ⟨2, ![n, f]⟩ ⟨2, ![e, 1]⟩ ⟨2, ![e, f]⟩ [1] [0] [] [0] [] 1 ![1, f]) :
    GatherDims ⟨2, ![n, f]⟩ ⟨2, ![e, 1]⟩ ⟨2, ![e, f]⟩ where
  offsetDims := [1]
  collapsedSliceDims := [0]
  operandBatchingDims := []
  startIndicesBatchingDims := []
  startIndexMap := [0]
  indexVectorDim := 1
  sliceSizes := ![1, f]
  wf := wf

/-- Entries of an `[n]` array gathered at `[e, 1]` start indices into `[e]`. -/
abbrev entryGather (wf : GatherDims.WF ⟨1, ![n]⟩ ⟨2, ![e, 1]⟩ ⟨1, ![e]⟩ [] [0] [] [0] [] 1 ![1]) :
    GatherDims ⟨1, ![n]⟩ ⟨2, ![e, 1]⟩ ⟨1, ![e]⟩ where
  offsetDims := []
  collapsedSliceDims := [0]
  operandBatchingDims := []
  startIndicesBatchingDims := []
  startIndexMap := [0]
  indexVectorDim := 1
  sliceSizes := ![1]
  wf := wf

/-- Rows of an `[e, f]` array of updates added into an `[n, f]` array at the rows `[e, 1]` start indices name. -/
abbrev rowsScatter (wf : ScatterDims.WF ⟨2, ![n, f]⟩ ⟨2, ![e, 1]⟩ ⟨2, ![e, f]⟩ [1] [0] [0] 1) :
    ScatterDims ⟨2, ![n, f]⟩ ⟨2, ![e, 1]⟩ ⟨2, ![e, f]⟩ where
  updateWindowDims := [1]
  insertedWindowDims := [0]
  scatterDimsToOperandDims := [0]
  indexVectorDim := 1
  wf := wf

/-! ## The gathers read at an index -/

/-- THE ROW GATHER AT `(k, q)`: the operand at the clamped start index of edge `k`, column `q`. -/
theorem rowsGather_apply {α : Type} {w : ℕ} (hn : 0 < n)
    (wf : GatherDims.WF ⟨2, ![n, f]⟩ ⟨2, ![e, 1]⟩ ⟨2, ![e, f]⟩ [1] [0] [] [0] [] 1 ![1, f])
    (X : (⟨2, ![n, f]⟩ : Shape).Idx → α) (idx : IVec ⟨2, ![e, 1]⟩ w) (j : (⟨2, ![e, f]⟩ : Shape).Idx) :
    Host.gather (rowsGather wf) X idx j = X (ix2 (clampNode hn (idx (edgeIdx (edgeOf j)))) (featOf j)) := by
  unfold Host.gather
  congr 1
  funext a
  refine Fin.ext ?_
  have hsi : (rowsGather wf).siIdx j ⟨List.idxOf (0 : Fin 2) (rowsGather wf).startIndexMap,
      List.idxOf_lt_length_iff.2 (List.mem_singleton.mpr rfl)⟩ = edgeIdx (edgeOf j) := by
    funext b; refine Fin.ext ?_
    match b with
    | ⟨0, _⟩ => rfl
    | ⟨1, _⟩ => rfl
  match a with
  | ⟨0, _⟩ =>
    show (rowsGather wf).start j idx 0 + (rowsGather wf).batchCoord j 0 + (rowsGather wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather wf).startIndexMap from List.mem_singleton.mpr rfl), hsi]
    rfl
  | ⟨1, _⟩ =>
    show (rowsGather wf).start j idx 1 + (rowsGather wf).batchCoord j 1 + (rowsGather wf).offCoord j 1 = (j 1).val
    rw [GatherDims.batchCoord_eq_zero _ _ _ List.not_mem_nil]
    unfold GatherDims.start
    rw [dif_neg (show (1 : Fin 2) ∉ (rowsGather wf).startIndexMap from fun h => Nat.one_ne_zero (congrArg Fin.val (List.mem_singleton.mp h)))]
    unfold GatherDims.offCoord
    rw [dif_pos (show (1 : Fin 2) ∈ (rowsGather wf).sKept from (GatherDims.mem_sKept _ _).mpr
      ⟨fun h => Nat.one_ne_zero (congrArg Fin.val (List.mem_singleton.mp h)), List.not_mem_nil⟩)]
    simp only [Nat.zero_add, Nat.add_zero]
    rfl

/-- THE ENTRY GATHER AT `k`: the operand at the clamped start index of edge `k`. -/
theorem entryGather_apply {α : Type} {w : ℕ} (hn : 0 < n)
    (wf : GatherDims.WF ⟨1, ![n]⟩ ⟨2, ![e, 1]⟩ ⟨1, ![e]⟩ [] [0] [] [0] [] 1 ![1])
    (D : (⟨1, ![n]⟩ : Shape).Idx → α) (idx : IVec ⟨2, ![e, 1]⟩ w) (k : Fin e) :
    Host.gather (entryGather wf) D idx (ix1 k) = D (ix1 (clampNode hn (idx (edgeIdx k)))) := by
  unfold Host.gather
  congr 1
  funext a
  obtain rfl : a = 0 := Subsingleton.elim _ _
  refine Fin.ext ?_
  show (entryGather wf).start (ix1 k) idx 0 + (entryGather wf).batchCoord (ix1 k) 0 + (entryGather wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryGather wf).startIndexMap from List.mem_singleton.mpr rfl)]
  have hsi : (entryGather wf).siIdx (ix1 k) ⟨List.idxOf (0 : Fin 1) (entryGather wf).startIndexMap,
      List.idxOf_lt_length_iff.2 (List.mem_singleton.mpr rfl)⟩ = edgeIdx k := by
    funext b; refine Fin.ext ?_
    match b with
    | ⟨0, _⟩ => rfl
    | ⟨1, _⟩ => rfl
  rw [hsi]
  rfl

/-! ## Where the scatter puts an update row -/

/-- An update of edge `j`'s row that lands at index `i` lands on the row its start-index word names: the word, read
    signed, IS row `i`'s number (in particular it is not negative and is below `n`; otherwise the update is dropped). -/
theorem rowsScatter_some {w : ℕ} (wf : ScatterDims.WF ⟨2, ![n, f]⟩ ⟨2, ![e, 1]⟩ ⟨2, ![e, f]⟩ [1] [0] [0] 1)
    (idx : IVec ⟨2, ![e, 1]⟩ w) (j : (⟨2, ![e, f]⟩ : Shape).Idx) (i : (⟨2, ![n, f]⟩ : Shape).Idx)
    (h : (rowsScatter wf).resultIdx? j idx = some i) : (idx (edgeIdx (edgeOf j))).toInt = ((nodeOf i).val : ℤ) := by
  have hsi : (rowsScatter wf).siIdx j ⟨List.idxOf (0 : Fin 2) (rowsScatter wf).scatterDimsToOperandDims,
      List.idxOf_lt_length_iff.2 (List.mem_singleton.mpr rfl)⟩ = edgeIdx (edgeOf j) := by
    funext b; refine Fin.ext ?_
    match b with
    | ⟨0, _⟩ => rfl
    | ⟨1, _⟩ => rfl
  have hstart : (rowsScatter wf).start j idx 0 = (idx (edgeIdx (edgeOf j))).toInt := by
    unfold ScatterDims.start
    rw [dif_pos (show (0 : Fin 2) ∈ (rowsScatter wf).scatterDimsToOperandDims from List.mem_singleton.mpr rfl), hsi]
  have hwin : (rowsScatter wf).window j 0 = 0 := by
    unfold ScatterDims.window
    rw [dif_neg (show (0 : Fin 2) ∉ (rowsScatter wf).sKept from fun h => by
      have h2 := (List.mem_filter.mp h).2
      simp at h2)]
  unfold ScatterDims.resultIdx? at h
  split at h
  · rename_i hh
    have hi := Option.some.inj h
    have h0 := (hh 0).1
    rw [hstart, hwin] at h0
    subst hi
    show (idx (edgeIdx (edgeOf j))).toInt = (((rowsScatter wf).start j idx 0 + ((rowsScatter wf).window j 0 : ℕ)).toNat : ℤ)
    rw [hstart, hwin]
    simp only [Nat.cast_zero, add_zero] at h0 ⊢
    exact (Int.toNat_of_nonneg h0).symm
  · exact absurd h (by simp)

/-! ## Scaling before the messages are sent and after they are summed, against scaling edge by edge -/

/-- THE NORMALISATION SPLIT. `H` the nodes' rows, `D` a nonnegative finite factor per node, `Z` a zero array to add into.
    Left: rows scaled by their own node's factor, gathered at the sources, summed at the targets, the sum at node
    `c` scaled by `D c`. Right: rows gathered at the sources, each edge's row scaled by the product of the factor gathered
    at its source and the factor gathered at its target — the target read through start indices `colIN` that agree
    with the scatter's `colI` wherever the latter is not negative —, then summed at the targets. Equal at every index:
    an edge summed at `c` has the word `c` as its target, which is not negative, so both readings of its target are
    `c`, the second factor is `D c` in every term, and it moves out of the sum. -/
theorem scale_split (hn : 0 < n)
    (ws : ScatterDims.WF ⟨2, ![n, f]⟩ ⟨2, ![e, 1]⟩ ⟨2, ![e, f]⟩ [1] [0] [0] 1)
    (wg : GatherDims.WF ⟨2, ![n, f]⟩ ⟨2, ![e, 1]⟩ ⟨2, ![e, f]⟩ [1] [0] [] [0] [] 1 ![1, f])
    (we : GatherDims.WF ⟨1, ![n]⟩ ⟨2, ![e, 1]⟩ ⟨1, ![e]⟩ [] [0] [] [0] [] 1 ![1])
    (H Z : FVec Ideal ⟨2, ![n, f]⟩ .f32) (D : FVec Ideal ⟨1, ![n]⟩ .f32) (rowI colI colIN : IVec ⟨2, ![e, 1]⟩ 32)
    (hZ : ∀ i, Z i = (0 : EReal)) (hD : ∀ k, (0 : EReal) ≤ D k ∧ D k ≠ (⊤ : EReal))
    (hN : ∀ k : Fin e, 0 ≤ (colI (edgeIdx k)).toInt → colIN (edgeIdx k) = colI (edgeIdx k))
    (i : (⟨2, ![n, f]⟩ : Shape).Idx) :
    (Host.scatterAdd (F := Ideal) (rowsScatter ws) Z colI
        (Host.gather (rowsGather wg) (fun p => (H p * D (ix1 (nodeOf p)) : EReal)) rowI) i : EReal) * D (ix1 (nodeOf i))
      = Host.scatterAdd (F := Ideal) (rowsScatter ws) Z colI
          (fun j => (Host.gather (rowsGather wg) H rowI j
            * (Host.gather (entryGather we) D rowI (ix1 (edgeOf j)) * Host.gather (entryGather we) D colIN (ix1 (edgeOf j))) : EReal)) i := by
  show ((Z i + ∑ j ∈ Finset.univ.filter (fun j => (rowsScatter ws).resultIdx? j colI = some i),
          Host.gather (rowsGather wg) (fun p => (H p * D (ix1 (nodeOf p)) : EReal)) rowI j : EReal)) * D (ix1 (nodeOf i))
      = Z i + ∑ j ∈ Finset.univ.filter (fun j => (rowsScatter ws).resultIdx? j colI = some i),
          (Host.gather (rowsGather wg) H rowI j
            * (Host.gather (entryGather we) D rowI (ix1 (edgeOf j)) * Host.gather (entryGather we) D colIN (ix1 (edgeOf j))) : EReal)
  rw [hZ i, zero_add, zero_add, sum_mul_of_nonneg_ne_top _ _ (hD _).1 (hD _).2]
  refine Finset.sum_congr rfl fun j hj => ?_
  have hj' : (rowsScatter ws).resultIdx? j colI = some i := (Finset.mem_filter.mp hj).2
  have ht := rowsScatter_some ws colI j i hj'
  have hnn : 0 ≤ (colI (edgeIdx (edgeOf j))).toInt := by rw [ht]; exact Int.natCast_nonneg _
  rw [rowsGather_apply hn wg, rowsGather_apply hn wg, entryGather_apply hn we, entryGather_apply hn we,
    hN (edgeOf j) hnn, clampNode_of_toInt hn _ (nodeOf i) ht, nodeOf_ix2]
  exact mul_assoc _ _ _

end Dims

end Cert.SegmentScale

end
-- ==== Proof.Payloads.lean ====
/-
  What the two kernel bodies compute on one block of 5000 nodes, entry by entry, over the extended reals.

  The first body multiplies the block's `[5000, 128]` feature rows by the `[128, 128]` weight matrix (a product into a zero
  accumulator; the narrowing of both operands to a 16-bit float format is the identity on extended reals) and scales
  row `r` by the node's factor `x2[r, 0]`: entry `(r, q)` is `(∑ k, x0[r, k] · x1[k, q]) · x2[r, 0]`.
  The second body scales the aggregated row `r` by the node's factor, adds the bias row and rectifies:
  entry `(r, q)` is `max (x0[r, q] · x1[r, 0] + x2[0, q]) 0`.
-/
import proofs.«101896_j20066087207116_2_alg».proof.Proof.Gen.KernelIdeal.Skeleton
import proofs.«101896_j20066087207116_2_alg».proof.Proof.LibRowLayers
import proofs.«101896_j20066087207116_2_alg».proof.Proof.LibColumnBroadcast
import proofs.«101896_j20066087207116_2_alg».proof.Proof.LibSegmentScale
import Idealize.ShloMosaic.Lib.ValueLayout
noncomputable section
namespace Cert.KernelIdeal.Payloads
open Cert.KernelIdeal Cert.KernelIdeal.Gen Idealize.ShloMosaic Idealize.ShloMosaic.ValueIdx Cert.RowLayers Cert.SegmentScale

/-- The block product's dimension numbers contract the features' columns with the weights' rows. -/
theorem blockProduct : RowsTimesCols dot_S5000x128_S128x128_S5000x128_1_0_0_1_n_n where
  rank := rfl
  size := rfl
  lhs0 := fun j q => rfl
  lhs1 := fun j q => DotDims.lhsIdx_val_of_single _ (cl := 1) rfl j q
  rhs0 := fun j q => DotDims.rhsIdx_val_of_single _ (cr := 0) rfl j q
  rhs1 := fun j q => rfl

/-- The first body's stored value at `(r, q)`: the projected row entry times the node's factor. -/
theorem pay0_apply (x0 : Vec Ideal S5000x128 .f32) (x1 : Vec Ideal S128x128 .f32) (x2 : Vec Ideal S5000x1 .f32) (r : Fin 5000) (q : Fin 128) :
    (k0_pay1 (F := Ideal) x0 x1 x2 (ix2 r q) : EReal) = (∑ k : Fin 128, x0 (ix2 r k) * x1 (ix2 k q)) * x2 (ix2 r (0 : Fin 1)) := by
  unfold k0_pay1
  show (matmul dot_S5000x128_S128x128_S5000x128_1_0_0_1_n_n none (truncf .bf16 x0 bitsLt_bf16_f32) (truncf .bf16 x1 bitsLt_bf16_f32) (constant (F := Ideal) S5000x128 .f32 0x00000000#32) (ix2 r q) : EReal)
      * broadcastTo S5000x128 (shapeCast S5000x1 x2 shapeCasts_S5000x1_S5000x1) broadcasts_S5000x1_S5000x128 (ix2 r q) = _
  rw [Cert.ColumnBroadcast.broadcastTo_a1_ab_apply, shapeCast_self]
  have hm := congrFun (rowOf_matmul_zero blockProduct none (truncf (F := Ideal) .bf16 x0 bitsLt_bf16_f32) (truncf (F := Ideal) .bf16 x1 bitsLt_bf16_f32) r) q
  exact congrArg (· * x2 (ix2 r (0 : Fin 1))) hm

/-- The second body's stored value at `(r, q)`: scaled, biased, rectified. -/
theorem pay1_apply (x0 : Vec Ideal S5000x128 .f32) (x1 : Vec Ideal S5000x1 .f32) (x2 : Vec Ideal S1x128 .f32) (r : Fin 5000) (q : Fin 128) :
    (k1_pay1 (F := Ideal) x0 x1 x2 (ix2 r q) : EReal) = max (x0 (ix2 r q) * x1 (ix2 r (0 : Fin 1)) + x2 (ix2 (0 : Fin 1) q)) 0 := by
  unfold k1_pay1
  show max ((shapeCast S5000x128 x0 shapeCasts_S5000x128_S5000x128 (ix2 r q) : EReal)
        * broadcastTo S5000x128 (shapeCast S5000x1 x1 shapeCasts_S5000x1_S5000x1) broadcasts_S5000x1_S5000x128 (ix2 r q)
        + broadcastTo S5000x128 (shapeCast S1x128 x2 shapeCasts_S1x128_S1x128) broadcasts_S1x128_S5000x128 (ix2 r q))
      (Ideal.ofBits .f32 0x00000000#32) = _
  rw [Cert.ColumnBroadcast.broadcastTo_a1_ab_apply, broadcastTo_1b_ab_apply, shapeCast_self, shapeCast_self, shapeCast_self, Ideal.ofBits_zero_f32]

end Cert.KernelIdeal.Payloads
end
-- ==== Proof.Terms.lean ====
/-
  The vocabulary both programs are read in: the edge list's words, the per-node factor, and each program's result as one term.

  The edge list is a `[2, 600000]` array of integer words: row 0 the sources, row 1 the targets. Both programs append one
  self loop per node (`srcWords`, `dstWords`: 650000 words each), count the edges arriving at each node (`degree`: a zero
  vector with a one added at every target word that names a node) and take the factor `1/√degree`, guarded to `0` where the
  count is not positive (`factor`). A gather reads a negative word as counted from the end (`wrapNeg`); an index vector is
  handed to a gather or a scatter as an `[e, 1]` array of start indices (`asStart`).

  `kernelValue`: every node's row projected by the weights and scaled by its factor (`projScaled`), gathered at the sources and
  summed at the targets, then scaled by the target's factor, biased and rectified (`epilogue`), flattened.
  `refValue`: every node's row projected, gathered at the sources, scaled edge by edge with the product of the two factors
  gathered at the edge's source and target, summed at the targets, biased, rectified, flattened.
-/
import proofs.«101896_j20066087207116_2_alg».proof.Proof.Gen.KernelIdeal
import proofs.«101896_j20066087207116_2_alg».proof.Proof.Gen.ReferenceIdeal
import proofs.«101896_j20066087207116_2_alg».proof.Proof.LibSegmentScale
import Idealize.ShloMosaic.PureOps.Ideal

noncomputable section

namespace Cert.Graph

open Cert.ReferenceIdeal Cert.ReferenceIdeal.Facts₀ Idealize.ShloMosaic Idealize.ShloMosaic.ValueIdx Cert.SegmentScale

/-- An array of 32-bit integer words, and an array of extended reals, of a shape. -/
abbrev Words (s : Shape) : Type := IVec s 32
abbrev Reals (s : Shape) : Type := FVec Ideal s .f32

/-- The edges' source words: row 0 of the edge list, then one self loop per node. -/
def srcWords (E : Words S2x600000) : Words S650000 :=
  concatenate S650000 0 [⟨S600000, shapeCast S600000 (extractStridedSlice S1x600000 ![0, 0] E slices_S2x600000_S1x600000_0_0) shapeCasts_S1x600000_S600000⟩,
    ⟨S50000, iotaInDim S50000 32 0⟩] concatenates_S600000_S50000_S650000_d0

/-- The edges' target words: row 1 of the edge list, then one self loop per node. -/
def dstWords (E : Words S2x600000) : Words S650000 :=
  concatenate S650000 0 [⟨S600000, shapeCast S600000 (extractStridedSlice S1x600000 ![1, 0] E slices_S2x600000_S1x600000_1_0) shapeCasts_S1x600000_S600000⟩,
    ⟨S50000, iotaInDim S50000 32 0⟩] concatenates_S600000_S50000_S650000_d0

/-- A negative word read as counted from the end: the node count is added to it. -/
def wrapNeg (v : Words S650000) : Words S650000 :=
  select (cmpi .slt v (broadcastInDim S650000 ![] bcast_S_S650000 (constantI S_ 32 0#32)))
    (addi v (broadcastInDim S650000 ![] bcast_S_S650000 (constantI S_ 32 50000#32))) v

/-- An index vector as the `[e, 1]` array of start indices a gather or a scatter takes. -/
def asStart (v : Words S650000) : Words S650000x1 := broadcastInDim S650000x1 ![0] bcast_S650000_S650000x1_0 v

/-- A zero per node. -/
def zeroNodes : Reals S50000 := broadcastInDim S50000 ![] bcast_S_S50000 (constant (F := Ideal) S_ .f32 0x00000000#32)

/-- A zero per node and feature. -/
def zeroRows : Reals S50000x128 := broadcastInDim S50000x128 ![] bcast_S_S50000x128 (constant (F := Ideal) S_ .f32 0x00000000#32)

/-- How many edges arrive at each node: a one added, at every target word that names a node, into a zero vector. -/
def degree (E : Words S2x600000) : Reals S50000 :=
  Host.scatterAdd (F := Ideal) scatter_S50000_S650000x1_S650000_n_0_0_1 zeroNodes (asStart (dstWords E))
    (broadcastInDim S650000 ![] bcast_S_S650000 (constant (F := Ideal) S_ .f32 0x3F800000#32))

/-- The node's factor: `1/√degree` where the degree is positive, `0` elsewhere. -/
def factor (E : Words S2x600000) : Reals S50000 :=
  select (cmpf (F := Ideal) .ogt (degree E) zeroNodes) (Host.rsqrt (degree E)) zeroNodes

/-- The factors as a column `[50000, 1]`. -/
def factorColumn (E : Words S2x600000) : Reals Cert.KernelIdeal.S50000x1 :=
  shapeCast Cert.KernelIdeal.S50000x1 (factor E) Cert.KernelIdeal.Facts₀.shapeCasts_S50000_S50000x1

/-- The bias as a row `[1, 128]`. -/
def biasRow (b : Reals S128) : Reals S1x128 := shapeCast S1x128 b Cert.KernelIdeal.Facts₀.shapeCasts_S128_S1x128

/-- Every node's feature row projected by the weight matrix and scaled by the node's factor. -/
def projScaled (X : Reals S50000x128) (Wt : Reals S128x128) (D2 : Reals Cert.KernelIdeal.S50000x1) : Reals S50000x128 :=
  fun i => (∑ k : Fin 128, X (ix2 (nodeOf i) k) * Wt (ix2 k (featOf i))) * D2 (ix2 (nodeOf i) (0 : Fin 1))

/-- Every node's aggregated row scaled by the node's factor, plus the bias row, rectified at zero. -/
def epilogue (A : Reals S50000x128) (D2 : Reals Cert.KernelIdeal.S50000x1) (B2 : Reals S1x128) : Reals S50000x128 :=
  fun i => max (A i * D2 (ix2 (nodeOf i) (0 : Fin 1)) + B2 (ix2 (0 : Fin 1) (featOf i))) 0

/-- Rows gathered at the edges' sources and summed at the edges' targets. -/
def aggregate (HS : Reals S50000x128) (E : Words S2x600000) : Reals S50000x128 :=
  Host.scatterAdd (F := Ideal) scatter_S50000x128_S650000x1_S650000x128_1_0_0_1 zeroRows (asStart (dstWords E))
    (Host.gather gather_S50000x128_S650000x1_S650000x128_1_0_n_n_0_1_1128 HS (asStart (wrapNeg (srcWords E))))

/-- THE KERNEL'S RESULT as one term of the argument arrays. -/
def kernelValue (X : Reals S50000x128) (E : Words S2x600000) (Wt : Reals S128x128) (b : Reals S128) : Reals S6400000 :=
  shapeCast S6400000 (epilogue (aggregate (projScaled X Wt (factorColumn E)) E) (factorColumn E) (biasRow b)) shapeCasts_S50000x128_S6400000

/-- The product of the two factors gathered at each edge's source and target. -/
def edgeNorm (E : Words S2x600000) : Reals S650000 :=
  mulf (Host.gather gather_S50000_S650000x1_S650000_n_0_n_n_0_1_1 (factor E) (asStart (wrapNeg (srcWords E))))
    (Host.gather gather_S50000_S650000x1_S650000_n_0_n_n_0_1_1 (factor E) (asStart (wrapNeg (dstWords E))))

/-- THE REFERENCE'S RESULT as one term of the argument arrays. -/
def refValue (X : Reals S50000x128) (E : Words S2x600000) (Wt : Reals S128x128) (b : Reals S128) : Reals S6400000 :=
  shapeCast S6400000
    (maximumf
      (addf
        (Host.scatterAdd (F := Ideal) scatter_S50000x128_S650000x1_S650000x128_1_0_0_1 zeroRows (asStart (dstWords E))
          (mulf
            (Host.gather gather_S50000x128_S650000x1_S650000x128_1_0_n_n_0_1_1128
              (Host.dotGeneral (F := Ideal) dot_S50000x128_S128x128_S50000x128_1_0_0_1_n_n none X Wt) (asStart (wrapNeg (srcWords E))))
            (broadcastInDim S650000x128 ![0, 1] bcast_S650000x1_S650000x128_0_1
              (broadcastInDim S650000x1 ![0] bcast_S650000_S650000x1_0 (edgeNorm E)))))
        (broadcastInDim S50000x128 ![0, 1] bcast_S1x128_S50000x128_0_1 (broadcastInDim S1x128 ![1] bcast_S128_S1x128_1 b)))
      zeroRows)
    shapeCasts_S50000x128_S6400000

end Cert.Graph

end
-- ==== Proof.Region0.lean ====
/-
  The first region's output array as ONE function of the arrays the region finds.

  The grid has ten points; point `t` fetches rows `5000·t … 5000·t + 4999` of the features and of the column of node
  factors, the whole weight matrix, and writes back the same rows of the output. What a point writes is the body's value on
  its blocks (`Payloads.pay0_apply`), and a block's entry `(r, q)` is the array's entry `(5000·t + r, q)`; so the
  block written at `t` is block `t` of `projScaled`: entry `(i, q)` is `(∑ k, X[i, k] · W[k, q]) · D[i, 0]`. The ten
  blocks tile the array, hence the array ends holding `projScaled` everywhere.
-/
import proofs.«101896_j20066087207116_2_alg».proof.Proof.Gen.KernelIdeal.Frame
import proofs.«101896_j20066087207116_2_alg».proof.Proof.Payloads
import proofs.«101896_j20066087207116_2_alg».proof.Proof.Terms
import Idealize.ShloMosaic.Lib.Pipeline.Value

set_option maxRecDepth 16384

noncomputable section

namespace Cert.KernelIdeal.Region0

open Cert.KernelIdeal Cert.KernelIdeal.Gen Cert.KernelIdeal.Payloads Cert.SegmentScale
open Cert.Graph (projScaled)
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeroOffsets : (![0, 0] : Fin 2 → Nat) = fun _ => 0 := funext fun a => by fin_cases a <;> rfl

/-- The body's value on three blocks, at a block index `j`, is `projScaled` of three arrays at an array index `i`
    as soon as the blocks read those arrays where `i` says: the features' and the factors' row of `j` is the arrays'
    row of `i`, the weights are whole, and the columns agree. -/
theorem pay0_at (x0 : Vec Ideal S5000x128 .f32) (x1 : Vec Ideal S128x128 .f32) (x2 : Vec Ideal S5000x1 .f32)
    (X : S50000x128.Idx → EReal) (Wt : S128x128.Idx → EReal) (D2 : S50000x1.Idx → EReal)
    (r : Fin 5000) (q : Fin 128) (i : S50000x128.Idx)
    (h0 : ∀ k : Fin 128, x0 (ix2 r k) = X (ix2 (nodeOf i) k)) (h1 : ∀ k : Fin 128, x1 (ix2 k q) = Wt (ix2 k (featOf i)))
    (h2 : x2 (ix2 r (0 : Fin 1)) = D2 (ix2 (nodeOf i) (0 : Fin 1))) :
    (k0_pay1 (F := Ideal) x0 x1 x2 (ix2 r q) : EReal) = projScaled X Wt D2 i := by
  rw [pay0_apply]
  unfold projScaled
  rw [h2]
  exact congrArg (· * D2 (ix2 (nodeOf i) (0 : Fin 1))) (Finset.sum_congr rfl fun k _ => by rw [h0 k, h1 k])

/-- The printed index maps, decided once over the ten points: the features' and the factors' block row is the
    output's, every block column is `0`, the weights' block is the whole matrix, and the output's block row is at most 9. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 9 :=
  (by decide +kernel : ∀ t : Fin grid0.N, _)

/-- Every block row of the output is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- WHAT POINT `t` WRITES BACK is block `t` of `projScaled` of the arrays as the region finds them. -/
theorem flushed_eq (c : Dev nD) (t : Fin cfg0.N) :
    (dat0 V c).flushed 3 t
      = ((cfg0.win 3).blk t).view.read (Elt Ideal) (projScaled (V c main_arg0) (V c main_arg2) (V c main_v16)) := by
  show (cfg0.win 3).cut (grid0.coords t) ((dat0 V c).after 3 t) = _
  rw [after0_3]
  unfold out0_3
  rw [View.canon_unit_zero zeroOffsets]
  simp only [View.ld_unit_zero (S := S5000x128) zeroOffsets, View.ld_unit_zero (S := S128x128) zeroOffsets,
    View.ld_unit_zero (S := S5000x1) zeroOffsets]
  obtain ⟨e0, e1, e2, e3, e4, e5, e6, e7⟩ := idx_facts t
  funext j
  show (k0_pay1 (F := Ideal) (iblk0 V c 0 t) (iblk0 V c 1 t) (iblk0 V c 2 t) j : EReal)
    = projScaled (V c main_arg0) (V c main_arg2) (V c main_v16) (((cfg0.win 3).blk t).view.emb j)
  have hj0 : (j 0).val < 5000 := (j 0).isLt
  have hj1 : (j 1).val < 128 := (j 1).isLt
  have ej : j = ix2 (⟨(j 0).val, hj0⟩ : Fin 5000) (⟨(j 1).val, hj1⟩ : Fin 128) := by
    funext a; match a with | ⟨0, _⟩ => rfl | ⟨1, _⟩ => rfl
  rw [ej]
  refine pay0_at _ _ _ _ _ _ ⟨(j 0).val, hj0⟩ ⟨(j 1).val, hj1⟩ _ (fun k => ?_) (fun k => ?_) ?_
  · show V c main_arg0 (((cfg0.win 0).blk t).view.emb (ix2 (⟨(j 0).val, hj0⟩ : Fin 5000) k)) = V c main_arg0 _
    refine congrArg (V c main_arg0) (funext fun a => Fin.ext ?_)
    match a with
    | ⟨0, _⟩ =>
      show win0_0.index t (0 : Fin 2) * 5000 + 1 * (j 0).val = win0_3.index t (0 : Fin 2) * 5000 + 1 * (j 0).val
      omega
    | ⟨1, _⟩ =>
      show win0_0.index t (1 : Fin 2) * 128 + 1 * k.val = k.val
      omega
  · show V c main_arg2 (((cfg0.win 1).blk t).view.emb (ix2 k (⟨(j 1).val, hj1⟩ : Fin 128))) = V c main_arg2 _
    refine congrArg (V c main_arg2) (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_3.index t (1 : Fin 2) * 128 + 1 * (j 1).val
      omega
  · show V c main_v16 (((cfg0.win 2).blk t).view.emb (ix2 (⟨(j 0).val, hj0⟩ : Fin 5000) (0 : Fin 1))) = V c main_v16 _
    refine congrArg (V c main_v16) (funext fun a => Fin.ext ?_)
    match a with
    | ⟨0, _⟩ =>
      show win0_2.index t (0 : Fin 2) * 5000 + 1 * (j 0).val = win0_3.index t (0 : Fin 2) * 5000 + 1 * (j 0).val
      omega
    | ⟨1, _⟩ =>
      show win0_2.index t (1 : Fin 2) * 1 + 1 * 0 = 0
      omega

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v17).slice (win0_3.rect t)).set ↔ _
  rw [View.set_slice_whole, Rect.mem_set_unit]
  exact Iff.rfl

/-- Every index of the array is in the block of the point that owns its row: row `i` belongs to point `i / 5000`. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- THE OUTPUT ARRAY after the region: `projScaled` of the features, the weights and the factors' column as the
    region finds them. -/
theorem final (c : Dev nD) :
    (dat0 V c).arrAt 3 cfg0.N = projScaled (V c main_arg0) (V c main_arg2) (V c main_v16) :=
  (dat0 V c).arrAt_eq_of_cover 3 _ (fun t _ => flushed_eq V c t) cover

end Cert.KernelIdeal.Region0

end
-- ==== Proof.Region1.lean ====
/-
  The second region's output array as ONE function of the arrays the region finds.

  Ten points again; point `t` fetches rows `5000·t … 5000·t + 4999` of the aggregated messages and of the column of node
  factors, the whole `[1, 128]` bias row, and writes back the same rows of the output. The body's value on its blocks is
  `Payloads.pay1_apply`, a block's entry `(r, q)` is the array's entry `(5000·t + r, q)`, so the block written at `t` is
  block `t` of `epilogue`: entry `(i, q)` is `max (A[i, q] · D[i, 0] + B[0, q]) 0`. The blocks tile the array.
-/
import proofs.«101896_j20066087207116_2_alg».proof.Proof.Gen.KernelIdeal.Frame
import proofs.«101896_j20066087207116_2_alg».proof.Proof.Payloads
import proofs.«101896_j20066087207116_2_alg».proof.Proof.Terms
import Idealize.ShloMosaic.Lib.Pipeline.Value

set_option maxRecDepth 16384

noncomputable section

namespace Cert.KernelIdeal.Region1

open Cert.KernelIdeal Cert.KernelIdeal.Gen Cert.KernelIdeal.Payloads Cert.SegmentScale
open Cert.Graph (epilogue)
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeroOffsets : (![0, 0] : Fin 2 → Nat) = fun _ => 0 := funext fun a => by fin_cases a <;> rfl

/-- The body's value on three blocks at `(r, q)` is `epilogue` of three arrays at `i` as soon as the blocks read the
    arrays where `i` says. -/
theorem pay1_at (x0 : Vec Ideal S5000x128 .f32) (x1 : Vec Ideal S5000x1 .f32) (x2 : Vec Ideal S1x128 .f32)
    (A : S50000x128.Idx → EReal) (D2 : S50000x1.Idx → EReal) (B2 : S1x128.Idx → EReal)
    (r : Fin 5000) (q : Fin 128) (i : S50000x128.Idx)
    (h0 : x0 (ix2 r q) = A i) (h1 : x1 (ix2 r (0 : Fin 1)) = D2 (ix2 (nodeOf i) (0 : Fin 1)))
    (h2 : x2 (ix2 (0 : Fin 1) q) = B2 (ix2 (0 : Fin 1) (featOf i))) :
    (k1_pay1 (F := Ideal) x0 x1 x2 (ix2 r q) : EReal) = epilogue A D2 B2 i := by
  rw [pay1_apply, h0, h1, h2]
  rfl

/-- The printed index maps over the ten points: the aggregated rows' and the factors' block row is the output's,
    block columns are `0`, the bias block is the whole row, the output's block row is at most 9. -/
theorem idx_facts : ∀ t : Fin cfg1.N, win1_0.index t (0 : Fin 2) = win1_3.index t (0 : Fin 2)
    ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every block row of the output is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- WHAT POINT `t` WRITES BACK is block `t` of `epilogue` of the arrays as the region finds them. -/
theorem flushed_eq (c : Dev nD) (t : Fin cfg1.N) :
    (dat1 V c).flushed 3 t
      = ((cfg1.win 3).blk t).view.read (Elt Ideal) (epilogue (V c main_v27) (V c main_v16) (V c main_v28)) := by
  show (cfg1.win 3).cut (grid1.coords t) ((dat1 V c).after 3 t) = _
  rw [after1_3]
  unfold out1_3
  rw [View.canon_unit_zero zeroOffsets]
  simp only [View.ld_unit_zero (S := S5000x128) zeroOffsets, View.ld_unit_zero (S := S5000x1) zeroOffsets,
    View.ld_unit_zero (S := S1x128) zeroOffsets]
  obtain ⟨e0, e1, e2, e3, e4, e5, e6, e7⟩ := idx_facts t
  funext j
  show (k1_pay1 (F := Ideal) (iblk1 V c 0 t) (iblk1 V c 1 t) (iblk1 V c 2 t) j : EReal)
    = epilogue (V c main_v27) (V c main_v16) (V c main_v28) (((cfg1.win 3).blk t).view.emb j)
  have hj0 : (j 0).val < 5000 := (j 0).isLt
  have hj1 : (j 1).val < 128 := (j 1).isLt
  have ej : j = ix2 (⟨(j 0).val, hj0⟩ : Fin 5000) (⟨(j 1).val, hj1⟩ : Fin 128) := by
    funext a; match a with | ⟨0, _⟩ => rfl | ⟨1, _⟩ => rfl
  rw [ej]
  refine pay1_at _ _ _ _ _ _ ⟨(j 0).val, hj0⟩ ⟨(j 1).val, hj1⟩ _ ?_ ?_ ?_
  · show V c main_v27 (((cfg1.win 0).blk t).view.emb (ix2 (⟨(j 0).val, hj0⟩ : Fin 5000) (⟨(j 1).val, hj1⟩ : Fin 128))) = V c main_v27 _
    refine congrArg (V c main_v27) (funext fun a => Fin.ext ?_)
    match a with
    | ⟨0, _⟩ =>
      show win1_0.index t (0 : Fin 2) * 5000 + 1 * (j 0).val = win1_3.index t (0 : Fin 2) * 5000 + 1 * (j 0).val
      omega
    | ⟨1, _⟩ =>
      show win1_0.index t (1 : Fin 2) * 128 + 1 * (j 1).val = win1_3.index t (1 : Fin 2) * 128 + 1 * (j 1).val
      omega
  · show V c main_v16 (((cfg1.win 1).blk t).view.emb (ix2 (⟨(j 0).val, hj0⟩ : Fin 5000) (0 : Fin 1))) = V c main_v16 _
    refine congrArg (V c main_v16) (funext fun a => Fin.ext ?_)
    match a with
    | ⟨0, _⟩ =>
      show win1_1.index t (0 : Fin 2) * 5000 + 1 * (j 0).val = win1_3.index t (0 : Fin 2) * 5000 + 1 * (j 0).val
      omega
    | ⟨1, _⟩ =>
      show win1_1.index t (1 : Fin 2) * 1 + 1 * 0 = 0
      omega
  · show V c main_v28 (((cfg1.win 2).blk t).view.emb (ix2 (0 : Fin 1) (⟨(j 1).val, hj1⟩ : Fin 128))) = V c main_v28 _
    refine congrArg (V c main_v28) (funext fun a => Fin.ext ?_)
    match a with
    | ⟨0, _⟩ =>
      show win1_2.index t (0 : Fin 2) * 1 + 1 * 0 = 0
      omega
    | ⟨1, _⟩ =>
      show win1_2.index t (1 : Fin 2) * 128 + 1 * (j 1).val = win1_3.index t (1 : Fin 2) * 128 + 1 * (j 1).val
      omega

/-- An index of the array is in point `t`'s block iff each coordinate is in the block's range on its axis. -/
theorem mem_blk (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v29).slice (win1_3.rect t)).set ↔ _
  rw [View.set_slice_whole, Rect.mem_set_unit]
  exact Iff.rfl

/-- Row `i` of the array belongs to point `i / 5000`. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- THE OUTPUT ARRAY after the region: `epilogue` of the aggregated rows, the factors' column and the bias row as the
    region finds them. -/
theorem final (c : Dev nD) :
    (dat1 V c).arrAt 3 cfg1.N = epilogue (V c main_v27) (V c main_v16) (V c main_v28) :=
  (dat1 V c).arrAt_eq_of_cover 3 _ (fun t _ => flushed_eq V c t) cover

end Cert.KernelIdeal.Region1

end
-- ==== Proof.KernelValue.lean ====
/-
  The idealized kernel's result buffer at the return, as `kernelValue` of the argument arrays.

  The run's fold of buffer contents is walked backwards from the result: the last stretch flattens the second region's
  output; that output is `epilogue` of what the region finds (`Region1.final`); what it finds is what the stretch between the
  regions computed from the first region's output — a gather at the sources and a scatter-add at the targets —, from the
  factors' column and from the bias; the first region's output is `projScaled` of what it finds (`Region0.final`); and what it
  finds is what the first stretches computed from the launch memory: the edge words, the degree, the factor.
-/
import proofs.«101896_j20066087207116_2_alg».proof.Proof.Region0
import proofs.«101896_j20066087207116_2_alg».proof.Proof.Region1
import proofs.«101896_j20066087207116_2_alg».proof.Proof.Terms

set_option maxRecDepth 16384

noncomputable section

namespace Cert.KernelIdeal.KValue

open Cert.KernelIdeal Cert.KernelIdeal.Gen Cert.Graph
open Idealize.ShloMosaic Idealize.ShloMosaic.TcCoe Idealize.ShloMosaic.StableHlo Idealize.SL.Sem
open Idealize.ShloMosaic.Pipeline (Dat Cfg Window)

variable (m : (ℓ : Loc nD τ sig) → Buf (Elt Ideal) ℓ) (ρ : Dev nD → PrngReg) (c : Dev nD)

/-! ## Before the first region: the launch memory and what the first stretches compute from it -/

theorem W3_arg0 : W3 m ρ c (Proc.devRef .tc main_arg0) = m ((c : Thread nD τ).loc main_arg0) := by
  dsimp only [W3, W2, W1, hostOps0, hostOps0_1, hostOps0_2]
  after_results

theorem W3_arg2 : W3 m ρ c (Proc.devRef .tc main_arg2) = m ((c : Thread nD τ).loc main_arg2) := by
  dsimp only [W3, W2, W1, hostOps0, hostOps0_1, hostOps0_2]
  after_results

theorem W3_arg3 : W3 m ρ c (Proc.devRef .tc main_arg3) = m ((c : Thread nD τ).loc main_arg3) := by
  dsimp only [W3, W2, W1, hostOps0, hostOps0_1, hostOps0_2]
  after_results

/-- The source words. -/
theorem W3_src : W3 m ρ c (Proc.devRef .tc main_v5) = srcWords (m ((c : Thread nD τ).loc main_arg1)) := by
  dsimp only [W3, W2, W1, hostOps0, hostOps0_1, hostOps0_2]
  after_results
  rfl

/-- The target words. -/
theorem W3_dst : W3 m ρ c (Proc.devRef .tc main_v6) = dstWords (m ((c : Thread nD τ).loc main_arg1)) := by
  dsimp only [W3, W2, W1, hostOps0, hostOps0_1, hostOps0_2]
  after_results
  rfl

/-- The degree, its comparison with zero, its inverse square root and the zero vector, after the first stretch. -/
theorem W1_cmp : W1 m ρ c (Proc.devRef .tc main_v12)
    = cmpf (F := Ideal) .ogt (degree (m ((c : Thread nD τ).loc main_arg1))) zeroNodes := by
  dsimp only [W1, hostOps0]
  after_results
  rfl

theorem W1_rsqrt : W1 m ρ c (Proc.devRef .tc main_v13) = Host.rsqrt (degree (m ((c : Thread nD τ).loc main_arg1))) := by
  dsimp only [W1, hostOps0]
  after_results
  rfl

theorem W1_zero : W1 m ρ c (Proc.devRef .tc main_v14) = zeroNodes := by
  dsimp only [W1, hostOps0]
  after_results
  rfl

/-- The guarded selection, from any contents: the selected vector is the selection of the three it reads. -/
theorem where_result (V1 : Valuation τ sig (Elt Ideal)) :
    StableHlo.after (hostOps0_1 (F := Ideal)) V1 (Proc.devRef .tc main_v15)
      = select (V1 (Proc.devRef .tc main_v12) : IVec S50000 1) (V1 (Proc.devRef .tc main_v13) : FVec Ideal S50000 .f32)
          (V1 (Proc.devRef .tc main_v14) : FVec Ideal S50000 .f32) := by
  dsimp only [hostOps0_1]
  after_results
  rfl

/-- The factor, after the guarded selection. -/
theorem W2_factor : W2 m ρ c (Proc.devRef .tc main_v15) = factor (m ((c : Thread nD τ).loc main_arg1)) := by
  refine (where_result (W1 m ρ c)).trans ?_
  rw [W1_cmp, W1_rsqrt, W1_zero]
  unfold factor
  rfl

/-- The factors' column. -/
theorem W3_col : W3 m ρ c (Proc.devRef .tc main_v16) = factorColumn (m ((c : Thread nD τ).loc main_arg1)) := by
  dsimp only [W3, hostOps0_2]
  generalize hV : W2 m ρ c = V2
  after_results
  subst hV
  rw [W2_factor]
  unfold factorColumn
  generalize factor (m ((c : Thread nD τ).loc main_arg1)) = D
  rfl

/-! ## After the first region -/

/-- The first region's output: the projected, scaled rows. -/
theorem W4_rows : W4 m ρ c (Proc.devRef .tc main_v17)
    = projScaled (m ((c : Thread nD τ).loc main_arg0)) (m ((c : Thread nD τ).loc main_arg2)) (factorColumn (m ((c : Thread nD τ).loc main_arg1))) := by
  refine (W4_arr m ρ c 3).trans ((Region0.final (V3 m ρ) c).trans ?_)
  show projScaled (W3 m ρ c (Proc.devRef .tc main_arg0)) (W3 m ρ c (Proc.devRef .tc main_arg2)) (W3 m ρ c (Proc.devRef .tc main_v16)) = _
  rw [W3_arg0, W3_arg2, W3_col]

theorem W4_src : W4 m ρ c (Proc.devRef .tc main_v5) = srcWords (m ((c : Thread nD τ).loc main_arg1)) :=
  (W4_of_ne m ρ c main_v5 (by decide)).trans (W3_src m ρ c)

theorem W4_dst : W4 m ρ c (Proc.devRef .tc main_v6) = dstWords (m ((c : Thread nD τ).loc main_arg1)) :=
  (W4_of_ne m ρ c main_v6 (by decide)).trans (W3_dst m ρ c)

theorem W4_arg3 : W4 m ρ c (Proc.devRef .tc main_arg3) = m ((c : Thread nD τ).loc main_arg3) :=
  (W4_of_ne m ρ c main_arg3 (by decide)).trans (W3_arg3 m ρ c)

/-- The factors' column is an input of the first region: it leaves it as it found it. -/
theorem W4_col : W4 m ρ c (Proc.devRef .tc main_v16) = factorColumn (m ((c : Thread nD τ).loc main_arg1)) :=
  ((W4_arr m ρ c 2).trans (((dat0 (V3 m ρ) c).arrAt_in 2 rfl _).trans (A_eq0 (V3 m ρ) c 2))).trans (W3_col m ρ c)

/-! ## Between the regions: gather at the sources, sum at the targets -/

theorem W5_agg : W5 m ρ c (Proc.devRef .tc main_v27)
    = aggregate (projScaled (m ((c : Thread nD τ).loc main_arg0)) (m ((c : Thread nD τ).loc main_arg2)) (factorColumn (m ((c : Thread nD τ).loc main_arg1))))
        (m ((c : Thread nD τ).loc main_arg1)) := by
  dsimp only [W5, hostOps1]
  after_results
  rw [W4_rows, W4_src, W4_dst]
  unfold aggregate
  generalize projScaled _ _ _ = HS
  generalize srcWords _ = src
  generalize dstWords _ = dst
  rfl

theorem W5_col : W5 m ρ c (Proc.devRef .tc main_v16) = factorColumn (m ((c : Thread nD τ).loc main_arg1)) := by
  dsimp only [W5, hostOps1]
  after_results
  exact W4_col m ρ c

theorem W5_bias : W5 m ρ c (Proc.devRef .tc main_v28) = biasRow (m ((c : Thread nD τ).loc main_arg3)) := by
  dsimp only [W5, hostOps1]
  after_results
  rw [W4_arg3]
  rfl

/-! ## After the second region, and the return -/

theorem W6_out : W6 m ρ c (Proc.devRef .tc main_v29)
    = epilogue (aggregate (projScaled (m ((c : Thread nD τ).loc main_arg0)) (m ((c : Thread nD τ).loc main_arg2)) (factorColumn (m ((c : Thread nD τ).loc main_arg1))))
          (m ((c : Thread nD τ).loc main_arg1)))
        (factorColumn (m ((c : Thread nD τ).loc main_arg1))) (biasRow (m ((c : Thread nD τ).loc main_arg3))) := by
  refine (W6_arr m ρ c 3).trans ((Region1.final (V5 m ρ) c).trans ?_)
  show epilogue (W5 m ρ c (Proc.devRef .tc main_v27)) (W5 m ρ c (Proc.devRef .tc main_v16)) (W5 m ρ c (Proc.devRef .tc main_v28)) = _
  rw [W5_agg, W5_col, W5_bias]

/-- THE RESULT BUFFER at the return is `kernelValue` of the argument arrays as launched. -/
theorem W7_result : W7 m ρ c (Proc.devRef .tc main_v30)
    = kernelValue (m ((c : Thread nD τ).loc main_arg0)) (m ((c : Thread nD τ).loc main_arg1)) (m ((c : Thread nD τ).loc main_arg2))
        (m ((c : Thread nD τ).loc main_arg3)) := by
  dsimp only [W7, hostOps2]
  after_results
  rw [W6_out]
  unfold kernelValue
  generalize epilogue _ _ _ = A
  rfl

end Cert.KernelIdeal.KValue

end
-- ==== Proof.RefValue.lean ====
/-
  The reference's composed result term is `refValue` of the argument arrays: the same operations, read in the shared
  vocabulary (the edge words, the degree, the factor, the product of the two gathered factors named).
-/
import proofs.«101896_j20066087207116_2_alg».proof.Proof.RefRunPatched
import proofs.«101896_j20066087207116_2_alg».proof.Proof.Terms

noncomputable section

namespace Cert.ReferenceIdeal.RefValue

open Cert.ReferenceIdeal Cert.Graph Idealize.ShloMosaic Idealize.ShloMosaic.TcCoe Idealize.SL.Sem

set_option maxRecDepth 100000 in
/-- The run's result term at the ideal instance, in the shared vocabulary. -/
theorem res_eq (m : (ℓ : Loc nD τ sig) → Buf (Elt Ideal) ℓ) (c : Dev nD) :
    Cert.ReferenceIdeal.ValueP.res_main_v49 (F := Ideal) m c
      = refValue (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.ValueP.res_main_v49 refValue edgeNorm factor degree zeroRows zeroNodes asStart wrapNeg srcWords dstWords
  rfl

end Cert.ReferenceIdeal.RefValue

end
-- ==== Proof.LibGraphLayer.lean ====
/-
  One layer of a graph convolution over the extended reals, as whole-array functions given entry by entry.

  A layer first projects every node's feature row by a weight matrix (`matProd`: entry `(r, q)` is the sum over the
  contracted position `k` of `A[r, k] · B[k, q]`), then combines, node by node, the aggregated neighbour messages
  with the node's own projected row scaled by a per-node factor, adds a bias row and rectifies
  (`nodeCombine`: entry `(r, q)` is `max (agg[r, q] + h[r, q] · s[r] + bias[q]) z`). The per-node factor comes as a
  one-column array `[a, 1]`, the bias as a one-row array `[1, b]`. Also here: the keep-dims cast of a vector to a column.
-/
import Idealize.ShloMosaic.PureOps.Ideal
import Idealize.ShloMosaic.Lib.ValueIdx
import Idealize.ShloMosaic.Lib.ValueLayout
import Idealize.ShloMosaic.Lib.Pipeline.Value

noncomputable section

namespace Cert.GraphLayer

open Idealize.ShloMosaic Idealize.ShloMosaic.ValueIdx

/-- The product of an `[a, K]` array and a `[K, b]` array: entry `(r, q)` is `∑ k, A[r, k] · B[k, q]`. -/
def matProd {a K b : ℕ} (A : (⟨2, ![a, K]⟩ : Shape).Idx → EReal) (B : (⟨2, ![K, b]⟩ : Shape).Idx → EReal) :
    (⟨2, ![a, b]⟩ : Shape).Idx → EReal :=
  fun i => ∑ k : Fin K, A (ix2 (i 0) k) * B (ix2 k (i 1))

theorem matProd_ix2 {a K b : ℕ} (A : (⟨2, ![a, K]⟩ : Shape).Idx → EReal) (B : (⟨2, ![K, b]⟩ : Shape).Idx → EReal)
    (r : Fin a) (q : Fin b) : matProd A B (ix2 r q) = ∑ k : Fin K, A (ix2 r k) * B (ix2 k q) := rfl

/-- The combination at every node: the aggregated messages plus the node's own row scaled by the node's factor, plus
    the bias row, rectified at `z`. -/
def nodeCombine {a b : ℕ} (z : EReal) (agg h : (⟨2, ![a, b]⟩ : Shape).Idx → EReal) (s : (⟨2, ![a, 1]⟩ : Shape).Idx → EReal)
    (bias : (⟨2, ![1, b]⟩ : Shape).Idx → EReal) : (⟨2, ![a, b]⟩ : Shape).Idx → EReal :=
  fun i => max ((agg i + h i * s (ix2 (i 0) (0 : Fin 1))) + bias (ix2 (0 : Fin 1) (i 1))) z

theorem nodeCombine_ix2 {a b : ℕ} (z : EReal) (agg h : (⟨2, ![a, b]⟩ : Shape).Idx → EReal) (s : (⟨2, ![a, 1]⟩ : Shape).Idx → EReal)
    (bias : (⟨2, ![1, b]⟩ : Shape).Idx → EReal) (r : Fin a) (q : Fin b) :
    nodeCombine z agg h s bias (ix2 r q)
      = max ((agg (ix2 r q) + h (ix2 r q) * s (ix2 r (0 : Fin 1))) + bias (ix2 (0 : Fin 1) q)) z := rfl

/-- The combination at an index whose column coordinate is named: the bias entry may be read at that name. -/
theorem nodeCombine_apply_of_col {a b : ℕ} (z : EReal) (agg h : (⟨2, ![a, b]⟩ : Shape).Idx → EReal) (s : (⟨2, ![a, 1]⟩ : Shape).Idx → EReal)
    (bias : (⟨2, ![1, b]⟩ : Shape).Idx → EReal) (i : (⟨2, ![a, b]⟩ : Shape).Idx) (q : Fin b) (hq : q = i 1) :
    max ((agg i + h i * s (ix2 (i 0) (0 : Fin 1))) + bias (ix2 (0 : Fin 1) q)) z = nodeCombine z agg h s bias i := by
  subst hq; rfl

/-- An `[a]` array cast to a column `[a, 1]` reads, at `(r, u)`, the operand at `r`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Cert.GraphLayer

end
-- ==== Proof.Bridge.lean ====
/-
  The kernel's value is the reference's value, for every edge list and all real or infinite features, weights and bias.

  Entry `(c, q)` of the kernel's unflattened result is `max (A[c, q] · d c + b q) 0` with `A[c, q]` the sum, over the edges `k`
  whose target word names node `c`, of `h[src k, q] · d (src k)`; entry `(c, q)` of the reference's is
  `max (S[c, q] + b q) 0` with `S[c, q]` the sum over the same edges of `h[src k, q] · (d (src k) · d (dst k))`, where
  `h = X · W` is the projected features and `d` the node factor. `A[c, q] · d c = S[c, q]` is `SegmentScale.scale_split`:
  its three hypotheses are that the zero array is zero, that the factor is a nonnegative finite number
  (`factor_scale`), and that reading a word as counted from the end changes nothing when the word is not negative
  (`asStart_wrapNeg`). The rest reads layout operations at an index.
-/
import proofs.«101896_j20066087207116_2_alg».proof.Proof.Terms
import proofs.«101896_j20066087207116_2_alg».proof.Proof.LibSegmentScale
import proofs.«101896_j20066087207116_2_alg».proof.Proof.LibRowLayers
import proofs.«101896_j20066087207116_2_alg».proof.Proof.LibGraphLayer
import Idealize.ShloMosaic.Lib.Pipeline.Value
import Idealize.ShloMosaic.Lib.ValueLayout

noncomputable section

namespace Cert.Graph

open Cert.ReferenceIdeal Cert.ReferenceIdeal.Facts₀ Idealize.ShloMosaic Idealize.ShloMosaic.ValueIdx Cert.SegmentScale Cert.RowLayers

/-! ## The factor is a nonnegative finite number -/

theorem zeroNodes_apply (k : S50000.Idx) : zeroNodes k = (0 : EReal) :=
  show Ideal.ofBits .f32 0x00000000#32 = 0 from Ideal.ofBits_zero_f32

theorem zeroRows_apply (i : S50000x128.Idx) : zeroRows i = (0 : EReal) :=
  show Ideal.ofBits .f32 0x00000000#32 = 0 from Ideal.ofBits_zero_f32

theorem factor_scale (E : Words S2x600000) (k : S50000.Idx) : (0 : EReal) ≤ factor E k ∧ factor E k ≠ (⊤ : EReal) :=
  guardedRsqrt_vec (degree E) zeroNodes zeroNodes zeroNodes_apply zeroNodes_apply k

/-! ## Start indices: the index vector's word, and the reading of a word that is not negative -/

/-- The start-index word of edge `k` is the index vector's word at `k`. -/
theorem asStart_apply (v : Words S650000) (k : Fin 650000) : asStart v (edgeIdx k) = v (ix1 k) := by
  unfold asStart
  exact broadcastInDim_apply ![0] bcast_S650000_S650000x1_0 v (edgeIdx k) (ix1 k) (fun a => by
    match a with
    | ⟨0, _⟩ =>
      show k.val = if (650000 : ℕ) = 1 then 0 else k.val
      rw [if_neg (by decide)])

/-- A word that is not negative is read as it is. -/
theorem wrapNeg_of_nonneg (v : Words S650000) (k : Fin 650000) (h : 0 ≤ (v (ix1 k)).toInt) : wrapNeg v (ix1 k) = v (ix1 k) := by
  show Scalar.select (IntOp.cmpi .slt (v (ix1 k)) 0#32) (IntOp.addi (v (ix1 k)) 50000#32) (v (ix1 k)) = v (ix1 k)
  have hb : IntOp.cmpi .slt (v (ix1 k)) 0#32 = 0#1 := by
    show BitVec.ofBool ((v (ix1 k)).slt 0#32) = 0#1
    have hs : (v (ix1 k)).slt 0#32 = false := by
      unfold BitVec.slt
      exact decide_eq_false (by rw [BitVec.toInt_zero]; omega)
    rw [hs]; rfl
  rw [hb]
  exact select_zero _ _

/-- Wherever the scatter's start-index word is not negative, the gather's start-index word is the same word. -/
theorem asStart_wrapNeg (v : Words S650000) (k : Fin 650000) (h : 0 ≤ (asStart v (edgeIdx k)).toInt) :
    asStart (wrapNeg v) (edgeIdx k) = asStart v (edgeIdx k) := by
  rw [asStart_apply] at h ⊢
  rw [asStart_apply]
  exact wrapNeg_of_nonneg v k h

/-! ## Layout operations read at an index -/

/-- The factors' column at `(r, u)` is the factor of node `r`. -/
theorem factorColumn_apply (E : Words S2x600000) (r : Fin 50000) (u : Fin 1) : factorColumn E (ix2 r u) = factor E (ix1 r) :=
  Cert.GraphLayer.shapeCast_a_a1_apply (factor E) _ r u

/-- The bias row at `(0, q)` is the bias at `q`. -/
theorem biasRow_apply (b : Reals S128) (q : Fin 128) : biasRow b (ix2 (0 : Fin 1) q) = b (ix1 q) :=
  shapeCast_apply b _ _ _ (by
    rw [Shape.rowMajor_val_two, Shape.rowMajor_val_one]
    show q.val = 0 * 128 + q.val
    omega)

/-- The bias broadcast down the rows, at `i`, is the bias at `i`'s column. -/
theorem biasBroadcast_apply (b : Reals S128) (i : S50000x128.Idx) :
    broadcastInDim S50000x128 ![0, 1] bcast_S1x128_S50000x128_0_1 (broadcastInDim S1x128 ![1] bcast_S128_S1x128_1 b) i = b (ix1 (featOf i)) := by
  have h := congrFun (rowOf_broadcastInDim_vec (a := 50000) b bcast_S128_S1x128_1 bcast_S1x128_S50000x128_0_1 (nodeOf i)) (featOf i)
  rw [rowOf_apply, ← eq_ix2_node_feat i] at h
  exact h

/-- A value per edge, viewed `[e, 1]` and broadcast along the features, at `j` is the value of `j`'s edge. -/
theorem edgeBroadcast_apply (v : Reals S650000) (j : S650000x128.Idx) :
    broadcastInDim S650000x128 ![0, 1] bcast_S650000x1_S650000x128_0_1 (broadcastInDim S650000x1 ![0] bcast_S650000_S650000x1_0 v) j
      = v (ix1 (edgeOf j)) := by
  rw [broadcastInDim_apply ![0, 1] bcast_S650000x1_S650000x128_0_1 _ j (edgeIdx (edgeOf j)) (fun a => by
        match a with
        | ⟨0, _⟩ =>
          show (j 0).val = if (650000 : ℕ) = 1 then 0 else (j 0).val
          rw [if_neg (by decide)]
        | ⟨1, _⟩ =>
          show (0 : ℕ) = if (1 : ℕ) = 1 then 0 else (j 1).val
          rw [if_pos rfl]),
    broadcastInDim_apply ![0] bcast_S650000_S650000x1_0 v (edgeIdx (edgeOf j)) (ix1 (edgeOf j)) (fun a => by
        match a with
        | ⟨0, _⟩ =>
          show (j 0).val = if (650000 : ℕ) = 1 then 0 else (j 0).val
          rw [if_neg (by decide)])]

/-! ## The projection -/

/-- The reference's product contracts the features' columns with the weights' rows. -/
theorem wholeProduct : RowsTimesCols dot_S50000x128_S128x128_S50000x128_1_0_0_1_n_n where
  rank := rfl
  size := rfl
  lhs0 := fun j q => rfl
  lhs1 := fun j q => DotDims.lhsIdx_val_of_single _ (cl := 1) rfl j q
  rhs0 := fun j q => DotDims.rhsIdx_val_of_single _ (cr := 0) rfl j q
  rhs1 := fun j q => rfl

/-- The projected, scaled rows are the host's product scaled row by row with the node's factor. -/
theorem projScaled_eq (X : Reals S50000x128) (E : Words S2x600000) (Wt : Reals S128x128) :
    projScaled X Wt (factorColumn E)
      = fun p => (Host.dotGeneral (F := Ideal) dot_S50000x128_S128x128_S50000x128_1_0_0_1_n_n none X Wt p * factor E (ix1 (nodeOf p)) : EReal) := by
  funext p
  unfold projScaled
  rw [factorColumn_apply]
  have h := congrFun (rowOf_dotGeneral wholeProduct none X Wt (nodeOf p)) (featOf p)
  rw [rowOf_apply, ← eq_ix2_node_feat p] at h
  rw [h]
  simp only [rowOf_apply]

/-! ## The programs' dimension numbers are the three operations' of `SegmentScale` -/

theorem scatterDims_eq : scatter_S50000x128_S650000x1_S650000x128_1_0_0_1
    = rowsScatter (n := 50000) (e := 650000) (f := 128) scatter_S50000x128_S650000x1_S650000x128_1_0_0_1_wf := rfl

theorem gatherDims_eq : gather_S50000x128_S650000x1_S650000x128_1_0_n_n_0_1_1128
    = rowsGather (n := 50000) (e := 650000) (f := 128) gather_S50000x128_S650000x1_S650000x128_1_0_n_n_0_1_1128_wf := rfl

theorem entryDims_eq : gather_S50000_S650000x1_S650000_n_0_n_n_0_1_1
    = entryGather (n := 50000) (e := 650000) gather_S50000_S650000x1_S650000_n_0_n_n_0_1_1_wf := rfl

/-- The epilogue at an index. -/
theorem epilogue_apply (A : Reals S50000x128) (D2 : Reals Cert.KernelIdeal.S50000x1) (B2 : Reals S1x128) (i : S50000x128.Idx) :
    epilogue A D2 B2 i = max ((A i : EReal) * D2 (ix2 (nodeOf i) (0 : Fin 1)) + B2 (ix2 (0 : Fin 1) (featOf i))) 0 := rfl

/-! ## The two values -/

/-- `A[c, q] · d c = S[c, q]`: the aggregated pre-scaled rows, scaled at the target, are the rows scaled edge by edge and
    aggregated. -/
theorem aggregate_scaled (X : Reals S50000x128) (E : Words S2x600000) (Wt : Reals S128x128) (i : S50000x128.Idx) :
    (aggregate (projScaled X Wt (factorColumn E)) E i : EReal) * factor E (ix1 (nodeOf i))
      = Host.scatterAdd (F := Ideal) scatter_S50000x128_S650000x1_S650000x128_1_0_0_1 zeroRows (asStart (dstWords E))
          (mulf
            (Host.gather gather_S50000x128_S650000x1_S650000x128_1_0_n_n_0_1_1128
              (Host.dotGeneral (F := Ideal) dot_S50000x128_S128x128_S50000x128_1_0_0_1_n_n none X Wt) (asStart (wrapNeg (srcWords E))))
            (broadcastInDim S650000x128 ![0, 1] bcast_S650000x1_S650000x128_0_1
              (broadcastInDim S650000x1 ![0] bcast_S650000_S650000x1_0 (edgeNorm E)))) i := by
  have hupd : mulf
        (Host.gather gather_S50000x128_S650000x1_S650000x128_1_0_n_n_0_1_1128
          (Host.dotGeneral (F := Ideal) dot_S50000x128_S128x128_S50000x128_1_0_0_1_n_n none X Wt) (asStart (wrapNeg (srcWords E))))
        (broadcastInDim S650000x128 ![0, 1] bcast_S650000x1_S650000x128_0_1
          (broadcastInDim S650000x1 ![0] bcast_S650000_S650000x1_0 (edgeNorm E)))
      = fun j => (Host.gather gather_S50000x128_S650000x1_S650000x128_1_0_n_n_0_1_1128
            (Host.dotGeneral (F := Ideal) dot_S50000x128_S128x128_S50000x128_1_0_0_1_n_n none X Wt) (asStart (wrapNeg (srcWords E))) j
          * (Host.gather gather_S50000_S650000x1_S650000_n_0_n_n_0_1_1 (factor E) (asStart (wrapNeg (srcWords E))) (ix1 (edgeOf j))
            * Host.gather gather_S50000_S650000x1_S650000_n_0_n_n_0_1_1 (factor E) (asStart (wrapNeg (dstWords E))) (ix1 (edgeOf j))) : EReal) := by
    funext j
    rw [mulf_apply, edgeBroadcast_apply]
    unfold edgeNorm
    rw [mulf_apply]
  rw [hupd, projScaled_eq]
  unfold aggregate
  rw [scatterDims_eq, gatherDims_eq, entryDims_eq]
  exact scale_split (n := 50000) (e := 650000) (f := 128) (by decide)
    scatter_S50000x128_S650000x1_S650000x128_1_0_0_1_wf gather_S50000x128_S650000x1_S650000x128_1_0_n_n_0_1_1128_wf
    gather_S50000_S650000x1_S650000_n_0_n_n_0_1_1_wf
    (Host.dotGeneral (F := Ideal) dot_S50000x128_S128x128_S50000x128_1_0_0_1_n_n none X Wt) zeroRows (factor E)
    (asStart (wrapNeg (srcWords E))) (asStart (dstWords E)) (asStart (wrapNeg (dstWords E)))
    zeroRows_apply (factor_scale E) (fun k h => asStart_wrapNeg (dstWords E) k h) i

/-- THE BRIDGE: the kernel's value is the reference's. -/
theorem kernelValue_eq_refValue (X : Reals S50000x128) (E : Words S2x600000) (Wt : Reals S128x128) (b : Reals S128) :
    kernelValue X E Wt b = refValue X E Wt b := by
  unfold kernelValue refValue
  refine congrArg (fun A => shapeCast S6400000 A shapeCasts_S50000x128_S6400000) (funext fun i => ?_)
  rw [epilogue_apply, maximumf_apply, addf_apply, factorColumn_apply, biasRow_apply, biasBroadcast_apply, zeroRows_apply,
    aggregate_scaled]

end Cert.Graph

end
-- ==== Proof.lean ====
/-
  A graph-convolution layer computed two ways, equal over the extended reals.

  Both programs take node features `x : [50000, 128]`, an edge list of integer words `[2, 600000]`, weights `W : [128, 128]` and a
  bias `b : [128]`. Both append a self loop per node, count the edges arriving at each node and form the factor
  `d = 1/√degree` (zero where the count is not positive). With `h = x · W`:

    kernel     out[c, q] = max ( (∑ over edges k with target c of  h[src k, q] · d (src k)) · d c + b q ) 0
    reference  out[c, q] = max (  ∑ over edges k with target c of  h[src k, q] · (d (src k) · d (dst k))  + b q ) 0

  The kernel scales every row by its own node's factor inside a first pipelined region, lets the host gather and sum, and
  applies the target's factor, the bias and the rectifier in a second region; the reference scales edge by edge on the host.
  Every edge summed at `c` has target `c`, so the reference's second factor is `d c` in every term, and it moves out of the
  sum because `d c` is a nonnegative finite number — no finiteness of `x`, `W` or `b` is used, so the precondition is
  never opened (Proof/Bridge.lean over Proof/LibSegmentScale.lean).

  The kernel's run is the two regions among host stretches (Proof/KernelRun.lean), its result walked back through the
  fold of buffer contents to one term of the arguments (Proof/KernelValue.lean over Proof/Region0.lean, Proof/Region1.lean and
  Proof/Payloads.lean); the reference's run ends at its operations' composed term (Proof/RefRunPatched.lean, Proof/RefValue.lean).
  Nothing was rewritten by the idealization, so `preserves` is `True`.
-/
import proofs.«101896_j20066087207116_2_alg».proof.Defs
import proofs.«101896_j20066087207116_2_alg».proof.Proof.Gen.Kernel
import proofs.«101896_j20066087207116_2_alg».proof.Proof.Gen.Kernel.Skeleton
import proofs.«101896_j20066087207116_2_alg».proof.Proof.Gen.Kernel.Launch
import proofs.«101896_j20066087207116_2_alg».proof.Proof.Gen.Kernel.Points
import proofs.«101896_j20066087207116_2_alg».proof.Proof.Gen.Kernel.Frame
import proofs.«101896_j20066087207116_2_alg».proof.Proof.Gen.KernelIdeal
import proofs.«101896_j20066087207116_2_alg».proof.Proof.Gen.KernelIdeal.Skeleton
import proofs.«101896_j20066087207116_2_alg».proof.Proof.Gen.KernelIdeal.Launch
import proofs.«101896_j20066087207116_2_alg».proof.Proof.Gen.KernelIdeal.Points
import proofs.«101896_j20066087207116_2_alg».proof.Proof.Gen.KernelIdeal.Frame
import proofs.«101896_j20066087207116_2_alg».proof.Proof.Gen.ReferenceIdeal
import proofs.«101896_j20066087207116_2_alg».proof.Proof.Gen.Pre_finite_inputs
import proofs.«101896_j20066087207116_2_alg».proof.Proof.KernelRun
import proofs.«101896_j20066087207116_2_alg».proof.Proof.KernelValue
import proofs.«101896_j20066087207116_2_alg».proof.Proof.RefRunPatched
import proofs.«101896_j20066087207116_2_alg».proof.Proof.RefValue
import proofs.«101896_j20066087207116_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments: the two regions' generated frame. -/
theorem frame_kernel : Cert.frame_Kernel := fun m ρ _ => Cert.Kernel.Gen.frame m ρ

/-- The same for the idealized kernel. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the arguments both programs end with the same result: the kernel's run ends at
    `kernelValue` of its arguments, the reference's at `refValue` of the same arrays, and the two values are equal. -/
theorem algebraic : Cert.algebraic_KernelIdeal_ReferenceIdeal := by
  intro m ρ m' ρ' _ hagree
  refine ⟨fun c => Cert.Graph.kernelValue (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KValue.W7_result m ρ c), (h c).2⟩)
      (Cert.KernelIdeal.KRun.run_result m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2]
    exact (Cert.Graph.kernelValue_eq_refValue _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
